-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S100000x2 : Shape := ⟨2, ![100000, 2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S128x1 .f32) (main_arg6 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x256 .f32) (main_arg1 : FVec F S2x256x256 .f32) (main_arg2 : FVec F S2x256 .f32) (main_arg3 : FVec F S256x128 .f32) (main_arg4 : FVec F S128 .f32) (main_arg5 : FVec F S128x1 .f32) (main_arg6 : FVec F S1 .f32) (main_arg7 : IVec S2x800000 32) (main_arg8 : IVec S100000x2 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2x256x256 .f32 := Host.absf main_arg1
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S2x256 .f32 := Host.absf main_arg2
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S50000x256 : Shape := ⟨2, ![50000, 256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S100000x2 : Shape := ⟨2, ![100000, 2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x256x256 : Shape := ⟨3, ![1, 256, 256]⟩
abbrev S256x256 : Shape := ⟨2, ![256, 256]⟩
abbrev S2000x256 : Shape := ⟨2, ![2000, 256]⟩
abbrev S800000x256 : Shape := ⟨2, ![800000, 256]⟩
abbrev S1x256 : Shape := ⟨2, ![1, 256]⟩
abbrev S256 : Shape := ⟨1, ![256]⟩
abbrev S100000x1 : Shape := ⟨2, ![100000, 1]⟩
abbrev S100000 : Shape := ⟨1, ![100000]⟩
abbrev S100000x256 : Shape := ⟨2, ![100000, 256]⟩
abbrev S1x128 : Shape := ⟨2, ![1, 128]⟩
abbrev S1x1 : Shape := ⟨2, ![1, 1]⟩
abbrev S2000x1 : Shape := ⟨2, ![2000, 1]⟩
abbrev S2000x128 : Shape := ⟨2, ![2000, 128]⟩

abbrev nBuf : Space → Nat
  | .hbm => 134
  | .vmem => 18
  | .smem => 0
  | _ => 0

abbrev hbmTy0_0 (i : Nat) : BufTy := match i % 128 with
  | 0 => ⟨S50000x256, .f32⟩
  | 1 => ⟨S2x256x256, .f32⟩
  | 2 => ⟨S2x256, .f32⟩
  | 3 => ⟨S256x128, .f32⟩
  | 4 => ⟨S128, .f32⟩
  | 5 => ⟨S128x1, .f32⟩
  | 6 => ⟨S1, .f32⟩
  | 7 => ⟨S2x800000, .i32⟩
  | 8 => ⟨S100000x2, .i32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .i1⟩
  | 25 => ⟨S_, .f32⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S1x256x256, .f32⟩
  | 54 => ⟨S256x256, .f32⟩
  | 55 => ⟨S50000x256, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S800000x1, .f32⟩
  | 66 => ⟨S800000x256, .f32⟩
  | 67 => ⟨S800000x256, .f32⟩
  | 68 => ⟨S_, .f32⟩
  | 69 => ⟨S50000x256, .f32⟩
  | 70 => ⟨S800000x1, .i32⟩
  | 71 => ⟨S50000x256, .f32⟩
  | 72 => ⟨S1x256, .f32⟩
  | 73 => ⟨S256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S1x256x256, .f32⟩
  | 81 => ⟨S256x256, .f32⟩
  | 82 => ⟨S50000x256, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x256, .f32⟩
  | 92 => ⟨S800000x1, .f32⟩
  | 93 => ⟨S800000x256, .f32⟩
  | 94 => ⟨S800000x256, .f32⟩
  | 95 => ⟨S_, .f32⟩
  | 96 => ⟨S50000x256, .f32⟩
  | 97 => ⟨S800000x1, .i32⟩
  | 98 => ⟨S50000x256, .f32⟩
  | 99 => ⟨S1x256, .f32⟩
  | 100 => ⟨S256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S100000x1, .i32⟩
  | 108 => ⟨S100000, .i32⟩
  | 109 => ⟨S100000x1, .i32⟩
  | 110 => ⟨S100000, .i32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000x256, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S50000x256, .f32⟩

abbrev hbmTy0_1 (i : Nat) : BufTy := match i % 128 with
  | 0 => ⟨S100000x256, .f32⟩
  | 1 => ⟨S100000x256, .f32⟩
  | 2 => ⟨S1x128, .f32⟩
  | 3 => ⟨S1x1, .f32⟩
  | 4 => ⟨S100000x1, .f32⟩
  | 5 => ⟨S100000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call2_cst : Ref sig .tc := ⟨.hbm, 77, rfl⟩
abbrev main_call2_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call3_cst : Ref sig .tc := ⟨.hbm, 104, rfl⟩
abbrev main_call3_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_14 : Ref sig .tc := ⟨.hbm, 111, rfl⟩
abbrev main_v78 : Ref sig .tc := ⟨.hbm, 112, rfl⟩
abbrev main_v79 : Ref sig .tc := ⟨.hbm, 113, rfl⟩
abbrev main_c_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_16 : Ref sig .tc := ⟨.hbm, 120, rfl⟩
abbrev main_v85 : Ref sig .tc := ⟨.hbm, 121, rfl⟩
abbrev main_v86 : Ref sig .tc := ⟨.hbm, 122, rfl⟩
abbrev main_c_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S2x256x256_S1x256x256_0_0_0 : S2x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x256x256_S1x256x256_1_0_0 : S2x256x256.Slices ![1, 0, 0] S1x256x256
  shapeCasts_S2000x256_S2000x256 : S2000x256.ShapeCasts S2000x256
  slices_S2x256_S1x256_1_0 : S2x256.Slices ![1, 0] S1x256
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  shapeCasts_S128_S1x128 : S128.ShapeCasts S1x128
  shapeCasts_S1_S1x1 : S1.ShapeCasts S1x1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  gather_S50000x256_S100000x1_S100000x256_1_0_n_n_0_1_1256_wf : GatherDims.WF S50000x256 S100000x1 S100000x256 [1] [0] [] [0] [] 1 ![1, 256]
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .f32 = 32 ∨ (Rect.block (s := S100000x1) S2000x1.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v92) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v94) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v95) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S100000x2 : Shape := ⟨2, ![100000, 2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x256x256 : Shape := ⟨3, ![1, 256, 256]⟩
abbrev S256x256 : Shape := ⟨2, ![256, 256]⟩
abbrev S800000x256 : Shape := ⟨2, ![800000, 256]⟩
abbrev S1x256 : Shape := ⟨2, ![1, 256]⟩
abbrev S256 : Shape := ⟨1, ![256]⟩
abbrev S100000x1 : Shape := ⟨2, ![100000, 1]⟩
abbrev S100000 : Shape := ⟨1, ![100000]⟩
abbrev S100000x256 : Shape := ⟨2, ![100000, 256]⟩
abbrev S100000x128 : Shape := ⟨2, ![100000, 128]⟩
abbrev S1x128 : Shape := ⟨2, ![1, 128]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S50000x256, .f32⟩
  | 1 => ⟨S2x256x256, .f32⟩
  | 2 => ⟨S2x256, .f32⟩
  | 3 => ⟨S256x128, .f32⟩
  | 4 => ⟨S128, .f32⟩
  | 5 => ⟨S128x1, .f32⟩
  | 6 => ⟨S1, .f32⟩
  | 7 => ⟨S2x800000, .i32⟩
  | 8 => ⟨S100000x2, .i32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .i1⟩
  | 25 => ⟨S_, .f32⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S1x256x256, .f32⟩
  | 54 => ⟨S256x256, .f32⟩
  | 55 => ⟨S50000x256, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S800000x1, .f32⟩
  | 66 => ⟨S800000x256, .f32⟩
  | 67 => ⟨S800000x256, .f32⟩
  | 68 => ⟨S_, .f32⟩
  | 69 => ⟨S50000x256, .f32⟩
  | 70 => ⟨S800000x1, .i32⟩
  | 71 => ⟨S50000x256, .f32⟩
  | 72 => ⟨S1x256, .f32⟩
  | 73 => ⟨S256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S1x256x256, .f32⟩
  | 81 => ⟨S256x256, .f32⟩
  | 82 => ⟨S50000x256, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x256, .f32⟩
  | 92 => ⟨S800000x1, .f32⟩
  | 93 => ⟨S800000x256, .f32⟩
  | 94 => ⟨S800000x256, .f32⟩
  | 95 => ⟨S_, .f32⟩
  | 96 => ⟨S50000x256, .f32⟩
  | 97 => ⟨S800000x1, .i32⟩
  | 98 => ⟨S50000x256, .f32⟩
  | 99 => ⟨S1x256, .f32⟩
  | 100 => ⟨S256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S100000x1, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x256, .f32⟩
  | 118 => ⟨S100000x1, .i32⟩
  | 119 => ⟨S100000, .i32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S50000x256, .f32⟩

abbrev hbmTy0_1 (i : Nat) : BufTy := match i % 128 with
  | 0 => ⟨S100000x256, .f32⟩
  | 1 => ⟨S100000x256, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x1, .f32⟩
  | 10 => ⟨S1x1, .f32⟩
  | 11 => ⟨S100000x1, .f32⟩
  | 12 => ⟨S100000x1, .f32⟩
  | 13 => ⟨S100000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call2_cst : Ref sig .tc := ⟨.hbm, 77, rfl⟩
abbrev main_call2_v0 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call3_cst : Ref sig .tc := ⟨.hbm, 104, rfl⟩
abbrev main_call3_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_14 : Ref sig .tc := ⟨.hbm, 109, rfl⟩
abbrev main_v76 : Ref sig .tc := ⟨.hbm, 110, rfl⟩
abbrev main_v77 : Ref sig .tc := ⟨.hbm, 111, rfl⟩
abbrev main_c_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_16 : Ref sig .tc := ⟨.hbm, 120, rfl⟩
abbrev main_v85 : Ref sig .tc := ⟨.hbm, 121, rfl⟩
abbrev main_v86 : Ref sig .tc := ⟨.hbm, 122, rfl⟩
abbrev main_c_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call4_cst : Ref sig .tc := ⟨.hbm, 134, rfl⟩
abbrev main_call4_v0 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S2x256x256_S1x256x256_0_0_0 : S2x256x256.Slices ![0, 0, 0] S1x256x256
  shapeCasts_S1x256x256_S256x256 : S1x256x256.ShapeCasts S256x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x256x256_S1x256x256_1_0_0 : S2x256x256.Slices ![1, 0, 0] S1x256x256
  slices_S2x256_S1x256_1_0 : S2x256.Slices ![1, 0] S1x256
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  gather_S50000x256_S100000x1_S100000x256_1_0_n_n_0_1_1256_wf : GatherDims.WF S50000x256 S100000x1 S100000x256 [1] [0] [] [0] [] 1 ![1, 256]
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RunValue.lean ====
/-
  The idealized kernel program's run with its RESULT named.  The program is three pallas_call regions among
  stretches of host operations; the buffer contents at every boundary are a fold from the launch memory
  (`Gen.W0 … Gen.W15`: a stretch of host operations rewrites the buffers it writes, a region leaves its
  arrays at what its write-backs hold and every other buffer as entered).  Every weakly fair execution
  terminates with EVERY unscoped buffer at the fold's last valuation; read at the result buffer this names
  the result, read at an argument it is the launch contents (no operation and no region writes an argument).
-/
import proofs.«148352_j16638703305286_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last valuation of the fold, the arguments as launched. -/
theorem run_result : θ_run defs (onTc (τ := τ) (main (F := F))) ⟨m, fun _ => 0, ρ⟩ (fun r => ∀ c : Dev nD,
      r.2.mem ((c.tc : Thread nD τ).loc main_v96) = W15 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v96 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.RunValue

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.LinearEntry.lean ====
/-
  One linear layer, entry by entry.

  A linear layer multiplies a block of rows `x` (2000 rows of 256 features) by a square weight matrix `w`
  (256 by 256). On the extended reals a change of float format is the identity and a product accumulated into
  the zero splat is a plain sum, so the entry `(r, q)` of what a grid point computes is
  `∑ d, x[r, d] · w[d, q]`. The host's `dot_general` of the whole 50000-row array with the same weight
  matrix reads, at `(p, q)`, the same sum over row `p` of the array.
-/
import proofs.«148352_j16638703305286_1_alg».proof.Proof.Gen.KernelIdeal.Skeleton
import proofs.«148352_j16638703305286_1_alg».proof.ReferenceIdeal
import proofs.«148352_j16638703305286_1_alg».proof.Proof.LibMatmulRead
import proofs.«148352_j16638703305286_1_alg».proof.Proof.LibHostRead

noncomputable section

open scoped BigOperators

namespace Cert.KernelIdeal.RegionValue

open Idealize.ShloMosaic Idealize.ShloMosaic.ValueIdx
open Cert.KernelIdeal Cert.KernelIdeal.Gen

variable [Cert.ReferenceIdeal.Facts]

/-- The first layer's block product at row `r` of the block and column `q`: the inner product of that row with
    column `q` of the weight matrix. -/
theorem linear0_entry (x : Vec Ideal S2000x256 .f32) (w : Vec Ideal S256x256 .f32) (r : Fin 2000) (q : Fin 256) :
    k0_pay1 (F := Ideal) x w (ix2 r q) = ∑ d : Fin 256, x (ix2 r d) * w (ix2 d q) := by
  unfold k0_pay1
  simp only [shapeCast_self]
  exact matmul_ix2_apply dot_S2000x256_S256x256_S2000x256_1_0_0_1_n_n rfl rfl rfl rfl rfl rfl none _ _ r q

/-- The second layer's block product likewise (its extra cast of the rows to their own shape changes nothing). -/
theorem linear1_entry (x : Vec Ideal S2000x256 .f32) (w : Vec Ideal S256x256 .f32) (r : Fin 2000) (q : Fin 256) :
    k1_pay1 (F := Ideal) x w (ix2 r q) = ∑ d : Fin 256, x (ix2 r d) * w (ix2 d q) := by
  unfold k1_pay1
  simp only [shapeCast_self]
  exact matmul_ix2_apply dot_S2000x256_S256x256_S2000x256_1_0_0_1_n_n rfl rfl rfl rfl rfl rfl none _ _ r q

/-- The host's product of the whole array with the weight matrix at `(p, q)`: the inner product of row `p` of the
    array with column `q` of the weights. -/
theorem hostLinear_entry (X : FVec Ideal S50000x256 .f32) (W : FVec Ideal S256x256 .f32) (p : Fin 50000) (q : Fin 256) :
    Host.dotGeneral (F := Ideal) Cert.ReferenceIdeal.dot_S50000x256_S256x256_S50000x256_1_0_0_1_n_n none X W (ix2 p q)
      = ∑ d : Fin 256, X (ix2 p d) * W (ix2 d q) :=
  Cert.HostRead.dotGeneral_ix2_apply _ rfl rfl rfl rfl rfl rfl none X W p q

end Cert.KernelIdeal.RegionValue

end
-- ==== Proof.LinearRegion0.lean ====
/-
  Linear layer one: from the blocks a grid point writes to the whole result array.

  The layer's input has 50000 rows of 256 features and its weight matrix is 256 by 256. The grid has 25 points;
  point `t` is handed rows `2000·t … 2000·t + 1999` of the input and the whole weight matrix, and writes rows
  `2000·t … 2000·t + 1999` of the result. Row `r` of what it writes is row `r` of its input block times the weight
  matrix, that is, row `2000·t + r` of the input times the weight matrix: the block is the restriction to those
  rows of ONE function of the two arrays, the product of the whole input with the weights. Row `p` of the result is
  written by point `p / 2000`, so the 25 blocks cover the result, which therefore ends as that product.
-/
import proofs.«148352_j16638703305286_1_alg».proof.Proof.Gen.KernelIdeal.Frame
import proofs.«148352_j16638703305286_1_alg».proof.ReferenceIdeal
import proofs.«148352_j16638703305286_1_alg».proof.Proof.LinearEntry
import Idealize.ShloMosaic.PureOps.Ideal
import Idealize.ShloMosaic.Lib.Pipeline.Value
import Idealize.ShloMosaic.Lib.ValueIdx

noncomputable section

open scoped BigOperators

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-- A block that starts at the origin of its staging buffer. -/
theorem originOffsets0 : (![0, 0] : Fin 2 → Nat) = fun _ => 0 := funext fun a => by fin_cases a <;> rfl

/-- Where each window's block sits at grid point `t`: the input rows and the result rows at block row `t`, column
    block 0; the weight matrix always at block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the input block at point `t` is row `2000·t + r` of the input array. -/
theorem rowsBlock0 (c : Dev nD) (t : Fin cfg0.N) (r : Fin 2000) (d : Fin 256) (p : Fin 50000)
    (hp : p.val = 2000 * t.val + r.val) :
    (iblk0 V c 0 t : Vec Ideal S2000x256 .f32) (ix2 r d) = (V c main_arg0 : FVec Ideal S50000x256 .f32) (ix2 p d) := by
  obtain ⟨e0, e1, -, -, -, -⟩ := blockIndex0 t
  unfold iblk0
  rw [View.read_apply]
  show V c main_arg0 _ = V c main_arg0 _
  refine congrArg _ (funext fun a => Fin.ext ?_)
  match a with
  | ⟨0, _⟩ => show win0_0.index t (0 : Fin 2) * 2000 + 1 * r.val = p.val; rw [e0, hp]; omega
  | ⟨1, _⟩ => show win0_0.index t (1 : Fin 2) * 256 + 1 * d.val = d.val; rw [e1]; omega

/-- The weight block at every point is the whole weight matrix. -/
theorem weightsBlock0 (c : Dev nD) (t : Fin cfg0.N) (d : Fin 256) (q : Fin 256) :
    (iblk0 V c 1 t : Vec Ideal S256x256 .f32) (ix2 d q) = (V c main_v31 : FVec Ideal S256x256 .f32) (ix2 d q) := by
  obtain ⟨-, -, e2, e3, -, -⟩ := blockIndex0 t
  unfold iblk0
  rw [View.read_apply]
  show V c main_v31 _ = V c main_v31 _
  refine congrArg _ (funext fun a => Fin.ext ?_)
  match a with
  | ⟨0, _⟩ => show win0_1.index t (0 : Fin 2) * 256 + 1 * d.val = d.val; rw [e2]; omega
  | ⟨1, _⟩ => show win0_1.index t (1 : Fin 2) * 256 + 1 * q.val = q.val; rw [e3]; omega

/-- What point `t` writes back is rows `2000·t … 2000·t + 1999` of the product of the whole input with the weights:
    entry `(r, q)` of the block is `∑ d, input[2000·t + r, d] · weights[d, q]`. -/
theorem writtenBack0 (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x256_S256x256_S50000x256_1_0_0_1_n_n none
        (V c main_arg0) (V c main_v31)) := by
  show (cfg0.win 2).cut (grid0.coords t) ((dat0 V c).after 2 t) = _
  rw [after0_2]
  unfold out0_2
  rw [View.canon_unit_zero originOffsets0]
  simp only [View.ld_unit_zero (S := S2000x256) originOffsets0, View.ld_unit_zero (S := S256x256) originOffsets0]
  funext j
  obtain ⟨r, q, rfl⟩ : ∃ (r : Fin 2000) (q : Fin 256), j = (ix2 r q : S2000x256.Idx) :=
    ⟨j 0, j 1, eq_ix2 (n0 := 2000) (n1 := 256) j⟩
  obtain ⟨-, -, -, -, e4, e5⟩ := blockIndex0 t
  have hN : cfg0.N = 25 := N_0
  have hp : 2000 * t.val + r.val < 50000 := by have := t.isLt; have := r.isLt; omega
  -- entry (r, q) of the block sits at (2000·t + r, q) of the result array
  have hemb : ((cfg0.win 2).blk t).view.emb (ix2 r q)
      = (ix2 (⟨2000 * t.val + r.val, hp⟩ : Fin 50000) q : S50000x256.Idx) :=
    funext fun a => Fin.ext (by
      match a with
      | ⟨0, _⟩ => show win0_2.index t (0 : Fin 2) * 2000 + 1 * r.val = 2000 * t.val + r.val; rw [e4]; omega
      | ⟨1, _⟩ => show win0_2.index t (1 : Fin 2) * 256 + 1 * q.val = q.val; rw [e5]; omega)
  show k0_pay1 (F := Ideal) (iblk0 V c 0 t) (iblk0 V c 1 t) (ix2 r q)
    = Host.dotGeneral (F := Ideal) (φ₁ := .f32) (φ₂ := .f32) Cert.ReferenceIdeal.dot_S50000x256_S256x256_S50000x256_1_0_0_1_n_n none
        (V c main_arg0) (V c main_v31) (((cfg0.win 2).blk t).view.emb (ix2 r q))
  rw [hemb, hostLinear_entry]
  refine (linear0_entry (iblk0 V c 0 t) (iblk0 V c 1 t) r q).trans ?_
  refine Finset.sum_congr rfl fun d _ => ?_
  exact congrArg₂ (· * ·) (rowsBlock0 V c t r d ⟨_, hp⟩ rfl) (weightsBlock0 V c t d q)

/-- An entry of the result array lies in point `t`'s block iff each of its coordinates lies in the block's range. -/
theorem mem_resultBlock0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v32).slice (win0_2.rect t)).set ↔ _
  rw [View.set_slice_whole, Rect.mem_set_unit]
  exact Iff.rfl

/-- Every entry of the result is written: row `p` by point `p / 2000`. -/
theorem resultBlocks_cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e4, e5⟩ := blockIndex0 t
  refine ⟨t, flush0_2 t, ?_⟩
  rw [mem_resultBlock0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 256 ≤ (i 1).val ∧ (i 1).val < win0_2.index t (1 : Fin 2) * 256 + 256
    rw [e5]; omega

/-- The layer's result array after the region: the product of the input array, as the region finds it, with the
    weight matrix, as the region finds it. -/
theorem lin0_array (c : Dev nD) :
    (dat0 (F := Ideal) V c).arrAt 2 cfg0.N
      = Host.dotGeneral (F := Ideal) (φ₁ := .f32) (φ₂ := .f32) Cert.ReferenceIdeal.dot_S50000x256_S256x256_S50000x256_1_0_0_1_n_n none
          (V c main_arg0) (V c main_v31) :=
  (dat0 V c).arrAt_eq_of_cover 2 _ (fun t _ => writtenBack0 V c t) resultBlocks_cover0

end Cert.KernelIdeal.RegionValue

end
-- ==== Proof.LinearRegion1.lean ====
/-
  Linear layer two: from the blocks a grid point writes to the whole result array.

  The layer's input has 50000 rows of 256 features and its weight matrix is 256 by 256. The grid has 25 points;
  point `t` is handed rows `2000·t … 2000·t + 1999` of the input and the whole weight matrix, and writes rows
  `2000·t … 2000·t + 1999` of the result. Row `r` of what it writes is row `r` of its input block times the weight
  matrix, that is, row `2000·t + r` of the input times the weight matrix: the block is the restriction to those
  rows of ONE function of the two arrays, the product of the whole input with the weights. Row `p` of the result is
  written by point `p / 2000`, so the 25 blocks cover the result, which therefore ends as that product.
-/
import proofs.«148352_j16638703305286_1_alg».proof.Proof.Gen.KernelIdeal.Frame
import proofs.«148352_j16638703305286_1_alg».proof.ReferenceIdeal
import proofs.«148352_j16638703305286_1_alg».proof.Proof.LinearEntry
import Idealize.ShloMosaic.PureOps.Ideal
import Idealize.ShloMosaic.Lib.Pipeline.Value
import Idealize.ShloMosaic.Lib.ValueIdx

noncomputable section

open scoped BigOperators

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable [Cert.ReferenceIdeal.Facts]
variable (V : (c : Dev nD) → (b : Ref sig .tc) → Buf (Elt Ideal) ((c : Thread nD τ).loc b))

/-- A block that starts at the origin of its staging buffer. -/
theorem originOffsets1 : (![0, 0] : Fin 2 → Nat) = fun _ => 0 := funext fun a => by fin_cases a <;> rfl

/-- Where each window's block sits at grid point `t`: the input rows and the result rows at block row `t`, column
    block 0; the weight matrix always at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the input block at point `t` is row `2000·t + r` of the input array. -/
theorem rowsBlock1 (c : Dev nD) (t : Fin cfg1.N) (r : Fin 2000) (d : Fin 256) (p : Fin 50000)
    (hp : p.val = 2000 * t.val + r.val) :
    (iblk1 V c 0 t : Vec Ideal S2000x256 .f32) (ix2 r d) = (V c main_v51 : FVec Ideal S50000x256 .f32) (ix2 p d) := by
  obtain ⟨e0, e1, -, -, -, -⟩ := blockIndex1 t
  unfold iblk1
  rw [View.read_apply]
  show V c main_v51 _ = V c main_v51 _
  refine congrArg _ (funext fun a => Fin.ext ?_)
  match a with
  | ⟨0, _⟩ => show win1_0.index t (0 : Fin 2) * 2000 + 1 * r.val = p.val; rw [e0, hp]; omega
  | ⟨1, _⟩ => show win1_0.index t (1 : Fin 2) * 256 + 1 * d.val = d.val; rw [e1]; omega

/-- The weight block at every point is the whole weight matrix. -/
theorem weightsBlock1 (c : Dev nD) (t : Fin cfg1.N) (d : Fin 256) (q : Fin 256) :
    (iblk1 V c 1 t : Vec Ideal S256x256 .f32) (ix2 d q) = (V c main_v53 : FVec Ideal S256x256 .f32) (ix2 d q) := by
  obtain ⟨-, -, e2, e3, -, -⟩ := blockIndex1 t
  unfold iblk1
  rw [View.read_apply]
  show V c main_v53 _ = V c main_v53 _
  refine congrArg _ (funext fun a => Fin.ext ?_)
  match a with
  | ⟨0, _⟩ => show win1_1.index t (0 : Fin 2) * 256 + 1 * d.val = d.val; rw [e2]; omega
  | ⟨1, _⟩ => show win1_1.index t (1 : Fin 2) * 256 + 1 * q.val = q.val; rw [e3]; omega

/-- What point `t` writes back is rows `2000·t … 2000·t + 1999` of the product of the whole input with the weights:
    entry `(r, q)` of the block is `∑ d, input[2000·t + r, d] · weights[d, q]`. -/
theorem writtenBack1 (c : Dev nD) (t : Fin cfg1.N) :
    (dat1 (F := Ideal) V c).flushed 2 t = ((cfg1.win 2).blk t).view.read (Elt Ideal)
      (Host.dotGeneral (F := Ideal) (φ₁ := .f32) (φ₂ := .f32) Cert.ReferenceIdeal.dot_S50000x256_S256x256_S50000x256_1_0_0_1_n_n none
        (V c main_v51) (V c main_v53)) := by
  show (cfg1.win 2).cut (grid1.coords t) ((dat1 V c).after 2 t) = _
  rw [after1_2]
  unfold out1_2
  rw [View.canon_unit_zero originOffsets1]
  simp only [View.ld_unit_zero (S := S2000x256) originOffsets1, View.ld_unit_zero (S := S256x256) originOffsets1]
  funext j
  obtain ⟨r, q, rfl⟩ : ∃ (r : Fin 2000) (q : Fin 256), j = (ix2 r q : S2000x256.Idx) :=
    ⟨j 0, j 1, eq_ix2 (n0 := 2000) (n1 := 256) j⟩
  obtain ⟨-, -, -, -, e4, e5⟩ := blockIndex1 t
  have hN : cfg1.N = 25 := N_1
  have hp : 2000 * t.val + r.val < 50000 := by have := t.isLt; have := r.isLt; omega
  -- entry (r, q) of the block sits at (2000·t + r, q) of the result array
  have hemb : ((cfg1.win 2).blk t).view.emb (ix2 r q)
      = (ix2 (⟨2000 * t.val + r.val, hp⟩ : Fin 50000) q : S50000x256.Idx) :=
    funext fun a => Fin.ext (by
      match a with
      | ⟨0, _⟩ => show win1_2.index t (0 : Fin 2) * 2000 + 1 * r.val = 2000 * t.val + r.val; rw [e4]; omega
      | ⟨1, _⟩ => show win1_2.index t (1 : Fin 2) * 256 + 1 * q.val = q.val; rw [e5]; omega)
  show k1_pay1 (F := Ideal) (iblk1 V c 0 t) (iblk1 V c 1 t) (ix2 r q)
    = Host.dotGeneral (F := Ideal) (φ₁ := .f32) (φ₂ := .f32) Cert.ReferenceIdeal.dot_S50000x256_S256x256_S50000x256_1_0_0_1_n_n none
        (V c main_v51) (V c main_v53) (((cfg1.win 2).blk t).view.emb (ix2 r q))
  rw [hemb, hostLinear_entry]
  refine (linear1_entry (iblk1 V c 0 t) (iblk1 V c 1 t) r q).trans ?_
  refine Finset.sum_congr rfl fun d _ => ?_
  exact congrArg₂ (· * ·) (rowsBlock1 V c t r d ⟨_, hp⟩ rfl) (weightsBlock1 V c t d q)

/-- An entry of the result array lies in point `t`'s block iff each of its coordinates lies in the block's range. -/
theorem mem_resultBlock1 (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v54).slice (win1_2.rect t)).set ↔ _
  rw [View.set_slice_whole, Rect.mem_set_unit]
  exact Iff.rfl

/-- Every entry of the result is written: row `p` by point `p / 2000`. -/
theorem resultBlocks_cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, e4, e5⟩ := blockIndex1 t
  refine ⟨t, flush1_2 t, ?_⟩
  rw [mem_resultBlock1]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 256 ≤ (i 1).val ∧ (i 1).val < win1_2.index t (1 : Fin 2) * 256 + 256
    rw [e5]; omega

/-- The layer's result array after the region: the product of the input array, as the region finds it, with the
    weight matrix, as the region finds it. -/
theorem lin1_array (c : Dev nD) :
    (dat1 (F := Ideal) V c).arrAt 2 cfg1.N
      = Host.dotGeneral (F := Ideal) (φ₁ := .f32) (φ₂ := .f32) Cert.ReferenceIdeal.dot_S50000x256_S256x256_S50000x256_1_0_0_1_n_n none
          (V c main_v51) (V c main_v53) :=
  (dat1 V c).arrAt_eq_of_cover 2 _ (fun t _ => writtenBack1 V c t) resultBlocks_cover1

end Cert.KernelIdeal.RegionValue

end
-- ==== Proof.LinearArray.lean ====
/-
  The two linear layers' result arrays.

  Each of the two linear layers leaves in its result array the product of its input array with its weight matrix,
  both as the layer's region finds them: `lin0_array` for the first layer, `lin1_array` for the second. Each is
  proved in its own module, from the block a grid point writes back to the whole array.
-/
import proofs.«148352_j16638703305286_1_alg».proof.Proof.LinearRegion0
import proofs.«148352_j16638703305286_1_alg».proof.Proof.LinearRegion1
-- ==== Proof.LibRowLift.lean ====
/-
  A vector lifted to a one-row array, two ways.

  `x : [a]` becomes a `[1, a]` array either by a reshape or by a broadcast along a NEW leading unit axis (a
  `broadcast_in_dim` whose `dims = [1]` sends the vector's only axis to the array's second).  Both arrays hold
  `x i` at entry `(0, i)`, so they are one array.  A bias vector passed as a `(1, n)` operand after a reshape and the
  same bias added to every row of an `(m, n)` array meet through this.
-/
import Idealize.ShloMosaic.Lib.Pipeline.Value
import Idealize.ShloMosaic.Lib.ValueIdx
import Idealize.ShloMosaic.Lib.ValueLayout

namespace Cert.RowLift

open Idealize.ShloMosaic Idealize.ShloMosaic.ValueIdx

/-- The reshape `[a] → [1, a]` IS the broadcast `[a] → [1, a]` along a new leading axis: entry `(0, i)` of either is
    entry `i` of the vector (for `a = 1` the broadcast reads the vector's unit axis at `0`, which is `i`). -/
theorem shapeCast_a_1a_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x _ (ix1 i) fun d => ?_).symm
  match d with
  | ⟨0, _⟩ =>
    show i.val = if a = 1 then 0 else i.val
    have hlt : i.val < a := i.isLt
    split
    · omega
    · rfl

end Cert.RowLift
-- ==== Proof.DecoderSpec.lean ====
/-
  The decoder, entry by entry.

  A row `p` of the input `had` (256 features) goes through a first affine layer `had · W1 + b1` (128 hidden units), the
  maximum with zero, and a second affine layer `· W2 + b2` to ONE number. Written over the extended reals, with every
  contraction a sum over its one coordinate:
      hidden p k = max ((∑ d, had[p, d] · W1[d, k]) + b1[0, k]) 0
      out p      = (∑ k, hidden p k · W2[k, 0]) + b2[0, 0]
  The zero is kept as the word of `+0.0` read by the exact instance, so that neither side of a comparison evaluates it.
  The number of rows `n` is a parameter: a block of 2000 rows and the whole array of 100000 rows are the same function
  of their rows, and a block's row `r` at grid point `t` is the array's row `2000 t + r`.
-/
import Idealize.ShloMosaic.PureOps.Ideal.Laws
import Idealize.ShloMosaic.Lib.ValueIdx

noncomputable section

open scoped BigOperators

namespace Cert.Decoder

open Idealize.ShloMosaic Idealize.ShloMosaic.ValueIdx

/-- Hidden unit `k` of row `p`: the first layer's affine value, cut below at zero. -/
def hidden {n : ℕ} (had : (⟨2, ![n, 256]⟩ : Shape).Idx → EReal) (W1 : (⟨2, ![256, 128]⟩ : Shape).Idx → EReal)
    (b1 : (⟨2, ![1, 128]⟩ : Shape).Idx → EReal) (p : Fin n) (k : Fin 128) : EReal :=
  max ((∑ d : Fin 256, had (ix2 p d) * W1 (ix2 d k)) + b1 (ix2 (0 : Fin 1) k)) (Ideal.ofBits .f32 0x00000000#32)

/-- The decoder's output for row `p`. -/
def row {n : ℕ} (had : (⟨2, ![n, 256]⟩ : Shape).Idx → EReal) (W1 : (⟨2, ![256, 128]⟩ : Shape).Idx → EReal)
    (b1 : (⟨2, ![1, 128]⟩ : Shape).Idx → EReal) (W2 : (⟨2, ![128, 1]⟩ : Shape).Idx → EReal)
    (b2 : (⟨2, ![1, 1]⟩ : Shape).Idx → EReal) (p : Fin n) : EReal :=
  (∑ k : Fin 128, hidden had W1 b1 p k * W2 (ix2 k (0 : Fin 1))) + b2 (ix2 (0 : Fin 1) (0 : Fin 1))

/-- The decoder's output as an `[n, 1]` column. -/
def column {n : ℕ} (had : (⟨2, ![n, 256]⟩ : Shape).Idx → EReal) (W1 : (⟨2, ![256, 128]⟩ : Shape).Idx → EReal)
    (b1 : (⟨2, ![1, 128]⟩ : Shape).Idx → EReal) (W2 : (⟨2, ![128, 1]⟩ : Shape).Idx → EReal)
    (b2 : (⟨2, ![1, 1]⟩ : Shape).Idx → EReal) : (⟨2, ![n, 1]⟩ : Shape).Idx → EReal :=
  fun i => row had W1 b1 W2 b2 ⟨(i 0).val, idx2_lt0 i⟩

/-- At an index given by its coordinates the column reads the row's value. -/
theorem column_ix2 {n : ℕ} (had : (⟨2, ![n, 256]⟩ : Shape).Idx → EReal) (W1 : (⟨2, ![256, 128]⟩ : Shape).Idx → EReal)
    (b1 : (⟨2, ![1, 128]⟩ : Shape).Idx → EReal) (W2 : (⟨2, ![128, 1]⟩ : Shape).Idx → EReal)
    (b2 : (⟨2, ![1, 1]⟩ : Shape).Idx → EReal) (p : Fin n) (q : Fin 1) :
    column had W1 b1 W2 b2 (ix2 p q) = row had W1 b1 W2 b2 p := rfl

/-- A row's value depends on `had` only through that row: two inputs, of any numbers of rows, that agree on row `p` of
    the one and row `p'` of the other give the same output there. -/
theorem row_congr {n n' : ℕ} (had : (⟨2, ![n, 256]⟩ : Shape).Idx → EReal) (had' : (⟨2, ![n', 256]⟩ : Shape).Idx → EReal)
    (W1 : (⟨2, ![256, 128]⟩ : Shape).Idx → EReal) (b1 : (⟨2, ![1, 128]⟩ : Shape).Idx → EReal)
    (W2 : (⟨2, ![128, 1]⟩ : Shape).Idx → EReal) (b2 : (⟨2, ![1, 1]⟩ : Shape).Idx → EReal) (p : Fin n) (p' : Fin n')
    (h : ∀ d : Fin 256, had (ix2 p d) = had' (ix2 p' d)) :
    row had W1 b1 W2 b2 p = row had' W1 b1 W2 b2 p' := by
  unfold row hidden
  simp only [h]

end Cert.Decoder

end
-- ==== Proof.DecoderPayload.lean ====
/-
  The decoder kernel's stored value, read at an entry.

  The kernel's body computes, from its five loaded blocks (2000 rows of `had`, the two weight matrices and the two
  bias rows), `max (had · W1 + b1) 0 · W2 + b2`: two matrix products into zero accumulators, two row broadcasts of a
  bias, one maximum with the splat of zero, and changes of float format that are the identity on extended reals. Read at
  row `r` this is the decoder's value for that row of the block.
-/
import proofs.«148352_j16638703305286_1_alg».proof.Proof.Gen.KernelIdeal.Skeleton
import proofs.«148352_j16638703305286_1_alg».proof.Proof.LibMatmulRead
import proofs.«148352_j16638703305286_1_alg».proof.Proof.DecoderSpec
import Idealize.ShloMosaic.Lib.ValueLayout

noncomputable section

open scoped BigOperators

namespace Cert.KernelIdeal.RegionValue

open Cert.KernelIdeal Cert.KernelIdeal.Gen Idealize.ShloMosaic Idealize.ShloMosaic.ValueIdx

/-- The first layer of the body at `(r, k)`: the product's sum over the 256 features plus the bias row's entry `k`,
    cut below at zero — the hidden unit `k` of row `r`. -/
theorem decoder_hidden_apply (v0 : Vec Ideal S2000x256 .f32) (v3 : Vec Ideal S256x128 .f32) (v6 : Vec Ideal S1x128 .f32)
    (r : Fin 2000) (k : Fin 128) :
    (maximumf
        (addf
          (matmul dot_S2000x256_S256x128_S2000x128_1_0_0_1_n_n none
            (truncf FTy.bf16 (shapeCast S2000x256 v0 shapeCasts_S2000x256_S2000x256) bitsLt_bf16_f32)
            (truncf FTy.bf16 v3 bitsLt_bf16_f32) (constant (F := Ideal) S2000x128 FTy.f32 0x00000000#32))
          (broadcastTo S2000x128 (shapeCast S1x128 v6 shapeCasts_S1x128_S1x128) broadcasts_S1x128_S2000x128))
        (broadcast S2000x128 (FloatOps.ofBits (F := Ideal) FTy.f32 0x00000000#32)) : FVec Ideal S2000x128 .f32) (ix2 r k)
      = Cert.Decoder.hidden v0 v3 v6 r k := by
  rw [shapeCast_self, shapeCast_self]
  show max (matmul dot_S2000x256_S256x128_S2000x128_1_0_0_1_n_n none (truncf FTy.bf16 v0 bitsLt_bf16_f32)
        (truncf FTy.bf16 v3 bitsLt_bf16_f32) (constant (F := Ideal) S2000x128 FTy.f32 0x00000000#32) (ix2 r k)
      + broadcastTo S2000x128 v6 broadcasts_S1x128_S2000x128 (ix2 r k)) (Ideal.ofBits .f32 0x00000000#32) = _
  rw [matmul_ix2_apply dot_S2000x256_S256x128_S2000x128_1_0_0_1_n_n rfl rfl rfl rfl rfl rfl,
    broadcastTo_1b_ab_apply]
  rfl

/-- The body's stored value at row `r` of its block is the decoder's value for that row. -/
theorem decoder_payload_apply (v0 : Vec Ideal S2000x256 .f32) (v3 : Vec Ideal S256x128 .f32) (v6 : Vec Ideal S1x128 .f32)
    (v13 : Vec Ideal S128x1 .f32) (v16 : Vec Ideal S1x1 .f32) (r : Fin 2000) (q : Fin 1) :
    k2_pay1 (F := Ideal) v0 v3 v6 v13 v16 (ix2 r q) = Cert.Decoder.row v0 v3 v6 v13 v16 r := by
  obtain rfl : q = 0 := Subsingleton.elim _ _
  unfold k2_pay1
  rw [shapeCast_self v16]
  refine (addf_apply _ _ _).trans ?_
  rw [matmul_ix2_apply dot_S2000x128_S128x1_S2000x1_1_0_0_1_n_n rfl rfl rfl rfl rfl rfl,
    broadcastTo_1b_ab_apply]
  unfold Cert.Decoder.row
  refine congrArg₂ (· + ·) (Finset.sum_congr rfl fun k _ => congrArg (· * v13 (ix2 k (0 : Fin 1))) ?_) rfl
  exact decoder_hidden_apply v0 v3 v6 r k

end Cert.KernelIdeal.RegionValue

end
-- ==== Proof.DecoderBlocks.lean ====
/-
  From the decoder region's blocks to its output array.

  The decoder region runs over 50 grid points. At point `t` the body sees rows `2000 t … 2000 t + 1999` of `had` (its
  first window moves one block down per point; the index map is `t ↦ (t, 0)`), the two weight matrices and the two bias
  rows whole (their index maps are constant `(0, 0)` and their blocks are their arrays), and it writes back rows
  `2000 t … 2000 t + 1999` of the output column. Each row of the output depends only on the same row of `had`, so what
  point `t` writes back is block `t` of ONE column — the decoder's column of the five arrays as the region finds them — and
  the 50 blocks tile the 100000 rows: row `i` is in the block of point `i / 2000`.
-/
import proofs.«148352_j16638703305286_1_alg».proof.Proof.Gen.KernelIdeal.Frame
import proofs.«148352_j16638703305286_1_alg».proof.Proof.DecoderPayload
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The region's index maps, decided over the 50 grid points: the `had` window and the output window are at block
    `(t, 0)`, the four parameter windows at block `(0, 0)`. -/
theorem decoder_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The `had` window's block at point `t`, at `(r, d)`, is the array at row `2000 t + r`. -/
theorem decoder_iblk_had (c : Dev nD) (t : Fin cfg2.N) (r : Fin 2000) (d : Fin 256) (p : Fin 100000)
    (hp : p.val = 2000 * t.val + r.val) :
    (iblk2 V c 0 t : Vec Ideal S2000x256 .f32) (ix2 r d) = (V c main_v92 : S100000x256.Idx → EReal) (ix2 p d) := by
  obtain ⟨e0, e1, -⟩ := decoder_idx_facts t
  unfold iblk2
  rw [View.read_apply]
  show V c main_v92 _ = V c main_v92 _
  refine congrArg _ (funext fun a => Fin.ext ?_)
  match a with
  | ⟨0, _⟩ => show win2_0.index t (0 : Fin 2) * 2000 + 1 * r.val = p.val; rw [e0, hp]; omega
  | ⟨1, _⟩ => show win2_0.index t (1 : Fin 2) * 256 + 1 * d.val = d.val; rw [e1]; omega

/-- The first weight matrix's block is the matrix, at every point. -/
theorem decoder_iblk_W1 (c : Dev nD) (t : Fin cfg2.N) :
    (iblk2 V c 1 t : Vec Ideal S256x128 .f32) = V c main_arg3 := by
  obtain ⟨-, -, e0, e1, -⟩ := decoder_idx_facts t
  funext y
  unfold iblk2
  rw [View.read_apply]
  show V c main_arg3 _ = V c main_arg3 y
  refine congrArg _ (funext fun a => Fin.ext ?_)
  match a with
  | ⟨0, _⟩ => show win2_1.index t (0 : Fin 2) * 256 + 1 * (y 0).val = (y 0).val; rw [e0]; omega
  | ⟨1, _⟩ => show win2_1.index t (1 : Fin 2) * 128 + 1 * (y 1).val = (y 1).val; rw [e1]; omega

/-- The first bias row's block is the row. -/
theorem decoder_iblk_b1 (c : Dev nD) (t : Fin cfg2.N) :
    (iblk2 V c 2 t : Vec Ideal S1x128 .f32) = V c main_v93 := by
  obtain ⟨-, -, -, -, e0, e1, -⟩ := decoder_idx_facts t
  funext y
  unfold iblk2
  rw [View.read_apply]
  show V c main_v93 _ = V c main_v93 y
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The second weight matrix's block is the matrix. -/
theorem decoder_iblk_W2 (c : Dev nD) (t : Fin cfg2.N) :
    (iblk2 V c 3 t : Vec Ideal S128x1 .f32) = V c main_arg5 := by
  obtain ⟨-, -, -, -, -, -, e0, e1, -⟩ := decoder_idx_facts t
  funext y
  unfold iblk2
  rw [View.read_apply]
  show V c main_arg5 _ = V c main_arg5 y
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 1 + 1 * (y 1).val = (y 1).val; rw [e1]; omega

/-- The second bias's block is the bias. -/
theorem decoder_iblk_b2 (c : Dev nD) (t : Fin cfg2.N) :
    (iblk2 V c 4 t : Vec Ideal S1x1 .f32) = V c main_v94 := by
  obtain ⟨-, -, -, -, -, -, -, -, e0, e1, -⟩ := decoder_idx_facts t
  funext y
  unfold iblk2
  rw [View.read_apply]
  show V c main_v94 _ = V c main_v94 y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 1 + 1 * (y 1).val = (y 1).val; rw [e1]; omega

/-- A block of 2000 rows that is rows `2000 s …` of an array gives, through the body, the decoder's column of the array
    at the corresponding rows: entry `j` of the body's value is entry `i` of the column whenever `i`'s row is
    `2000 s` plus `j`'s row. -/
theorem decoder_block_eq (had : S100000x256.Idx → EReal) (W1 : Vec Ideal S256x128 .f32) (b1 : Vec Ideal S1x128 .f32)
    (W2 : Vec Ideal S128x1 .f32) (b2 : Vec Ideal S1x1 .f32) (s : ℕ) (x0 : Vec Ideal S2000x256 .f32)
    (hx0 : ∀ (r : Fin 2000) (d : Fin 256) (p : Fin 100000), p.val = 2000 * s + r.val → x0 (ix2 r d) = had (ix2 p d))
    (j : S2000x1.Idx) (i : S100000x1.Idx) (hi : (i 0).val = 2000 * s + (j 0).val) :
    k2_pay1 (F := Ideal) x0 W1 b1 W2 b2 j = Cert.Decoder.column (n := 100000) had W1 b1 W2 b2 i := by
  obtain ⟨r, q, rfl⟩ : ∃ (r : Fin 2000) (q : Fin 1), j = ix2 r q := ⟨j 0, j 1, eq_ix2 j⟩
  rw [decoder_payload_apply]
  unfold Cert.Decoder.column
  exact Cert.Decoder.row_congr x0 had W1 b1 W2 b2 r ⟨(i 0).val, idx2_lt0 i⟩ fun d => hx0 r d _ hi

/-- WHAT POINT `t` WRITES BACK is block `t` of the decoder's column of the five arrays as the region finds them. -/
theorem decoder_flushed (c : Dev nD) (t : Fin cfg2.N) :
    (dat2 (F := Ideal) V c).flushed 5 t = ((cfg2.win 5).blk t).view.read (Elt Ideal)
      (Cert.Decoder.column (n := 100000) (V c main_v92) (V c main_arg3) (V c main_v93) (V c main_arg5) (V c main_v94)) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S256x128) zero_offsets,
    View.ld_unit_zero (S := S1x128) zero_offsets, View.ld_unit_zero (S := S128x1) zero_offsets,
    View.ld_unit_zero (S := S1x1) zero_offsets]
  rw [decoder_iblk_W1 V c t, decoder_iblk_b1 V c t, decoder_iblk_W2 V c t, decoder_iblk_b2 V c t]
  have e5 := (decoder_idx_facts t).2.2.2.2.2.2.2.2.2.2.1
  funext j
  show k2_pay1 (F := Ideal) (iblk2 V c 0 t) (V c main_arg3) (V c main_v93) (V c main_arg5) (V c main_v94) j
    = Cert.Decoder.column (n := 100000) (V c main_v92) (V c main_arg3) (V c main_v93) (V c main_arg5) (V c main_v94)
        (((cfg2.win 5).blk t).view.emb j)
  refine decoder_block_eq (V c main_v92) (V c main_arg3) (V c main_v93) (V c main_arg5) (V c main_v94) t.val
    (iblk2 V c 0 t) (fun r d p hp => decoder_iblk_had V c t r d p hp) j (((cfg2.win 5).blk t).view.emb j) ?_
  show win2_5.index t (0 : Fin 2) * 2000 + 1 * (j 0).val = 2000 * t.val + (j 0).val
  rw [e5]; omega

/-- An index of the output array is in point `t`'s block iff each coordinate is in the block's range on its axis. -/
theorem decoder_mem_blk (t : Fin cfg2.N) (i : S100000x1.Idx) :
    i ∈ ((cfg2.win 5).blk t).view.set ↔ ∀ a : Fin 2, win2_5.index t a * S2000x1.size a ≤ (i a).val
      ∧ (i a).val < win2_5.index t a * S2000x1.size a + S2000x1.size a := by
  show i ∈ ((View.whole main_v95).slice (win2_5.rect t)).set ↔ _
  rw [View.set_slice_whole, Rect.mem_set_unit]
  exact Iff.rfl

/-- THE BLOCKS TILE THE COLUMN: row `i` is written back by point `i / 2000`. -/
theorem decoder_cover (i : S100000x1.Idx) :
    ∃ t : Fin cfg2.N, (cfg2.win 5).flush t = true ∧ i ∈ ((cfg2.win 5).blk t).view.set := by
  have hi0 : (i 0).val < 100000 := idx2_lt0 i
  have hi1 : (i 1).val < 1 := idx2_lt1 i
  have hN : cfg2.N = 50 := N_2
  obtain ⟨t, ht⟩ : ∃ t : Fin cfg2.N, t.val = (i 0).val / 2000 := ⟨⟨(i 0).val / 2000, by rw [hN]; omega⟩, rfl⟩
  have e0 := (decoder_idx_facts t).2.2.2.2.2.2.2.2.2.2.1
  have e1 := (decoder_idx_facts t).2.2.2.2.2.2.2.2.2.2.2
  refine ⟨t, flush2_5 t, ?_⟩
  rw [decoder_mem_blk]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 1 ≤ (i 1).val ∧ (i 1).val < win2_5.index t (1 : Fin 2) * 1 + 1
    rw [e1]; omega

/-- THE OUTPUT ARRAY after the region: the decoder's column of the five arrays as the region finds them. -/
theorem decoder_final (c : Dev nD) :
    (dat2 (F := Ideal) V c).arrAt 5 cfg2.N
      = Cert.Decoder.column (n := 100000) (V c main_v92) (V c main_arg3) (V c main_v93) (V c main_arg5) (V c main_v94) :=
  (dat2 (F := Ideal) V c).arrAt_eq_of_cover 5 _ (fun t _ => decoder_flushed V c t) decoder_cover

end Cert.KernelIdeal.RegionValue

end
-- ==== Proof.DecoderHost.lean ====
/-
  The reference's decoder lines, read entry by entry.

  The reference computes the same decoder on the whole `[100000, 256]` array with host operations: a `dot_general` with
  `W1`, the bias row `b1` broadcast down the rows, the maximum with a broadcast scalar zero, a `dot_general` with `W2`
  and the bias `b2` broadcast down the rows. At the exact instance each `dot_general` is the sum over its one contracted
  coordinate, a broadcast of a `[1, b]` row reads the row's entry and a broadcast scalar reads the scalar; so the column
  the reference computes is the decoder's column.
-/
import proofs.«148352_j16638703305286_1_alg».proof.ReferenceIdeal
import proofs.«148352_j16638703305286_1_alg».proof.Proof.LibHostRead
import proofs.«148352_j16638703305286_1_alg».proof.Proof.DecoderSpec

noncomputable section

open scoped BigOperators

namespace Cert.Decoder

open Idealize.ShloMosaic Idealize.ShloMosaic.ValueIdx

/-- A `[1, b]` row broadcast down `a` rows by `broadcast_in_dim` along both axes reads, at `(p, q)`, the row's entry `q`. -/
theorem bcast_row_apply {α : Type} {a b : ℕ} (h : (⟨2, ![1, b]⟩ : Shape).BroadcastsInDim ⟨2, ![a, b]⟩ ![0, 1])
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

variable [Cert.ReferenceIdeal.Facts]

/-- The reference's hidden layer at `(p, k)`. -/
theorem host_hidden_apply (had : FVec Ideal Cert.ReferenceIdeal.S100000x256 .f32) (W1 : FVec Ideal Cert.ReferenceIdeal.S256x128 .f32)
    (b1 : FVec Ideal Cert.ReferenceIdeal.S1x128 .f32) (p : Fin 100000) (k : Fin 128) :
    (maximumf (addf (Host.dotGeneral (F := Ideal) Cert.ReferenceIdeal.dot_S100000x256_S256x128_S100000x128_1_0_0_1_n_n none had W1)
                    (broadcastInDim Cert.ReferenceIdeal.S100000x128 ![0, 1] Cert.ReferenceIdeal.Facts₀.bcast_S1x128_S100000x128_0_1 b1))
              (broadcastInDim Cert.ReferenceIdeal.S100000x128 ![] Cert.ReferenceIdeal.Facts₀.bcast_S_S100000x128
                (constant (F := Ideal) Cert.ReferenceIdeal.S_ .f32 0x00000000#32)) : FVec Ideal Cert.ReferenceIdeal.S100000x128 .f32) (ix2 p k)
      = hidden had W1 b1 p k := by
  show max (Host.dotGeneral (F := Ideal) Cert.ReferenceIdeal.dot_S100000x256_S256x128_S100000x128_1_0_0_1_n_n none had W1 (ix2 p k)
        + broadcastInDim Cert.ReferenceIdeal.S100000x128 ![0, 1] Cert.ReferenceIdeal.Facts₀.bcast_S1x128_S100000x128_0_1 b1 (ix2 p k))
      (broadcastInDim Cert.ReferenceIdeal.S100000x128 ![] Cert.ReferenceIdeal.Facts₀.bcast_S_S100000x128
        (constant (F := Ideal) Cert.ReferenceIdeal.S_ .f32 0x00000000#32) (ix2 p k)) = _
  rw [Cert.HostRead.dotGeneral_ix2_apply Cert.ReferenceIdeal.dot_S100000x256_S256x128_S100000x128_1_0_0_1_n_n rfl rfl rfl rfl rfl rfl,
    bcast_row_apply, Cert.HostRead.scalar_bcast_apply]
  rfl

/-- THE REFERENCE'S DECODER LINES are the decoder's column of their five operands. -/
theorem host_decoder (had : FVec Ideal Cert.ReferenceIdeal.S100000x256 .f32) (W1 : FVec Ideal Cert.ReferenceIdeal.S256x128 .f32)
    (b1 : FVec Ideal Cert.ReferenceIdeal.S1x128 .f32) (W2 : FVec Ideal Cert.ReferenceIdeal.S128x1 .f32)
    (b2 : FVec Ideal Cert.ReferenceIdeal.S1x1 .f32) :
    (addf (Host.dotGeneral (F := Ideal) Cert.ReferenceIdeal.dot_S100000x128_S128x1_S100000x1_1_0_0_1_n_n none
              (maximumf (addf (Host.dotGeneral (F := Ideal) Cert.ReferenceIdeal.dot_S100000x256_S256x128_S100000x128_1_0_0_1_n_n none had W1)
                              (broadcastInDim Cert.ReferenceIdeal.S100000x128 ![0, 1] Cert.ReferenceIdeal.Facts₀.bcast_S1x128_S100000x128_0_1 b1))
                        (broadcastInDim Cert.ReferenceIdeal.S100000x128 ![] Cert.ReferenceIdeal.Facts₀.bcast_S_S100000x128
                          (constant (F := Ideal) Cert.ReferenceIdeal.S_ .f32 0x00000000#32)))
              W2)
          (broadcastInDim Cert.ReferenceIdeal.S100000x1 ![0, 1] Cert.ReferenceIdeal.Facts₀.bcast_S1x1_S100000x1_0_1 b2)
        : FVec Ideal Cert.ReferenceIdeal.S100000x1 .f32)
      = column had W1 b1 W2 b2 := by
  funext i
  obtain ⟨p, q, rfl⟩ : ∃ (p : Fin 100000) (q : Fin 1), i = ix2 p q := ⟨i 0, i 1, eq_ix2 i⟩
  obtain rfl : q = 0 := Subsingleton.elim _ _
  rw [column_ix2]
  refine (addf_apply _ _ _).trans ?_
  rw [Cert.HostRead.dotGeneral_ix2_apply Cert.ReferenceIdeal.dot_S100000x128_S128x1_S100000x1_1_0_0_1_n_n rfl rfl rfl rfl rfl rfl,
    bcast_row_apply]
  unfold row
  refine congrArg₂ (· + ·) (Finset.sum_congr rfl fun k _ => congrArg (· * W2 (ix2 k (0 : Fin 1))) ?_) rfl
  exact host_hidden_apply had W1 b1 p k

end Cert.Decoder

end
-- ==== Proof.DecoderArray.lean ====
/-
  The decoder region's output array is the reference's decoder lines of the region's input arrays.

  Two readings of one column. The kernel side: the region's 50 write-backs leave the decoder's column of the five arrays as
  the region finds them (blocks of 2000 rows, each row a function of the same row of `had`). The reference side: its
  `dot_general`, bias broadcast, maximum with zero, `dot_general`, bias broadcast compute the same column entry by entry.
-/
import proofs.«148352_j16638703305286_1_alg».proof.Proof.DecoderBlocks
import proofs.«148352_j16638703305286_1_alg».proof.Proof.DecoderHost
import Idealize.ShloMosaic.PureOps.Ideal

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable [Cert.ReferenceIdeal.Facts]

/-- After the decoder region its output array holds what the reference's decoder lines compute from the region's five
    input arrays. -/
theorem dec_array (V : (c : Dev nD) → (b : Ref sig .tc) → Buf (Elt Ideal) ((c : Thread nD τ).loc b)) (c : Dev nD) :
    (dat2 (F := Ideal) V c).arrAt 5 cfg2.N
      = addf (Host.dotGeneral (F := Ideal) (φ₁ := .f32) (φ₂ := .f32) Cert.ReferenceIdeal.dot_S100000x128_S128x1_S100000x1_1_0_0_1_n_n none
                (maximumf (addf (Host.dotGeneral (F := Ideal) (φ₁ := .f32) (φ₂ := .f32) Cert.ReferenceIdeal.dot_S100000x256_S256x128_S100000x128_1_0_0_1_n_n none (V c main_v92) (V c main_arg3))
                                (broadcastInDim Cert.ReferenceIdeal.S100000x128 ![0, 1] Cert.ReferenceIdeal.Facts₀.bcast_S1x128_S100000x128_0_1 (V c main_v93)))
                          (broadcastInDim Cert.ReferenceIdeal.S100000x128 ![] Cert.ReferenceIdeal.Facts₀.bcast_S_S100000x128 (constant (F := Ideal) Cert.ReferenceIdeal.S_ .f32 0x00000000#32)))
                (V c main_arg5))
             (broadcastInDim Cert.ReferenceIdeal.S100000x1 ![0, 1] Cert.ReferenceIdeal.Facts₀.bcast_S1x1_S100000x1_0_1 (V c main_v94)) :=
  (decoder_final V c).trans
    (Cert.Decoder.host_decoder (V c main_v92) (V c main_arg3) (V c main_v93) (V c main_arg5) (V c main_v94)).symm

end Cert.KernelIdeal.RegionValue

end
-- ==== Proof.PlainCalls.lean ====
/-
  The outlined calls as plain operations.

  The host program calls two small functions, `where` (twice, in the degree normalisation) and `relu` (once per
  graph-convolution layer).  A call is printed as the function's operations over references that carry the type of
  the tensor they hold; contents move between that type and the buffer's own type along an equation of types which,
  at a literal reference, is the identity.  So each call's three operations ARE the plain operations on the same
  buffers with the same functions — stated here list by list — and the buffer contents at the three regions' entries
  can be read through the plain lists.  Reading the fold through the plain lists keeps every later term free of
  those transports.
-/
import proofs.«148352_j16638703305286_1_alg».proof.Proof.Gen.KernelIdeal.Frame
import Idealize.ShloMosaic.Lib.StableHlo.Run

noncomputable section

namespace Cert.KernelIdeal.PlainCalls

open Cert.KernelIdeal Cert.KernelIdeal.Gen Idealize.ShloMosaic Idealize.ShloMosaic.TcCoe Idealize.SL.Sem

variable {F : FTy → Type} [FloatOps F]

/-- `where(deg > 0, deg, 1)`: the scalar passed through, broadcast, and selected. -/
abbrev plainWhere0 : List (HloOp τ sig (Elt F)) :=
  [ StableHlo.unary main_cst_3 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.ternary main_v11 main_v7 main_call0_v1 main_v12 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]
/-- `where(deg > 0, rsqrt …, 0)`. -/
abbrev plainWhere1 : List (HloOp τ sig (Elt F)) :=
  [ StableHlo.unary main_cst_4 main_call1_v0 (id : (⟨S_, .f32⟩ : BufTy).Contents (Elt F) → (⟨S_, .f32⟩ : BufTy).Contents (Elt F)),
    StableHlo.unary main_call1_v0 main_call1_v1 (broadcastInDim S50000 ![] bcast_S_S50000 : (⟨S_, .f32⟩ : BufTy).Contents (Elt F) → (⟨S50000, .f32⟩ : BufTy).Contents (Elt F)),
    StableHlo.ternary main_v9 main_v13 main_call1_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]
/-- The first layer's `relu`: the zero scalar, its broadcast, the pointwise maximum. -/
abbrev plainRelu2 : List (HloOp τ sig (Elt F)) :=
  [ StableHlo.nullary main_call2_cst (constant S_ .f32 0x00000000#32 : (⟨S_, .f32⟩ : BufTy).Contents (Elt F)),
    StableHlo.unary main_call2_cst main_call2_v0 (broadcastInDim S50000x256 ![] bcast_S_S50000x256 : (⟨S_, .f32⟩ : BufTy).Contents (Elt F) → (⟨S50000x256, .f32⟩ : BufTy).Contents (Elt F)),
    StableHlo.binary main_v50 main_call2_v0 main_v51 (maximumf : (⟨S50000x256, .f32⟩ : BufTy).Contents (Elt F) → (⟨S50000x256, .f32⟩ : BufTy).Contents (Elt F) → (⟨S50000x256, .f32⟩ : BufTy).Contents (Elt F)) ]
/-- The second layer's `relu`. -/
abbrev plainRelu3 : List (HloOp τ sig (Elt F)) :=
  [ StableHlo.nullary main_call3_cst (constant S_ .f32 0x00000000#32 : (⟨S_, .f32⟩ : BufTy).Contents (Elt F)),
    StableHlo.unary main_call3_cst main_call3_v0 (broadcastInDim S50000x256 ![] bcast_S_S50000x256 : (⟨S_, .f32⟩ : BufTy).Contents (Elt F) → (⟨S50000x256, .f32⟩ : BufTy).Contents (Elt F)),
    StableHlo.binary main_v72 main_call3_v0 main_v73 (maximumf : (⟨S50000x256, .f32⟩ : BufTy).Contents (Elt F) → (⟨S50000x256, .f32⟩ : BufTy).Contents (Elt F) → (⟨S50000x256, .f32⟩ : BufTy).Contents (Elt F)) ]

theorem where0_eq : (hostOps0_1 : List (HloOp τ sig (Elt F))) = plainWhere0 := rfl
theorem where1_eq : (hostOps0_3 : List (HloOp τ sig (Elt F))) = plainWhere1 := rfl
theorem relu2_eq : (hostOps1_1 : List (HloOp τ sig (Elt F))) = plainRelu2 := rfl
theorem relu3_eq : (hostOps2_1 : List (HloOp τ sig (Elt F))) = plainRelu3 := rfl

variable (m : (ℓ : Loc nD τ sig) → Buf (Elt F) ℓ) (ρ : Dev nD → PrngReg)

/-- The buffer contents at the first region's entry, through the plain lists. -/
abbrev P5 : Dev nD → Valuation τ sig (Elt F) := fun c =>
  StableHlo.after hostOps0_4 (StableHlo.after plainWhere1 (StableHlo.after hostOps0_2 (StableHlo.after plainWhere0
    (StableHlo.after hostOps0 (W0 m ρ c)))))
theorem W5_eq (c : Dev nD) : W5 m ρ c = P5 m ρ c := by
  show StableHlo.after hostOps0_4 (StableHlo.after hostOps0_3 (StableHlo.after hostOps0_2 (StableHlo.after hostOps0_1
    (StableHlo.after hostOps0 (W0 m ρ c))))) = _
  rw [where0_eq, where1_eq]

/-- At the second region's entry. -/
abbrev P9 : Dev nD → Valuation τ sig (Elt F) := fun c =>
  StableHlo.after hostOps1_2 (StableHlo.after plainRelu2 (StableHlo.after hostOps1 (W6 m ρ c)))
theorem W9_eq (c : Dev nD) : W9 m ρ c = P9 m ρ c := by
  show StableHlo.after hostOps1_2 (StableHlo.after hostOps1_1 (StableHlo.after hostOps1 (W6 m ρ c))) = _
  rw [relu2_eq]

/-- At the third region's entry. -/
abbrev P13 : Dev nD → Valuation τ sig (Elt F) := fun c =>
  StableHlo.after hostOps2_2 (StableHlo.after plainRelu3 (StableHlo.after hostOps2 (W10 m ρ c)))
theorem W13_eq (c : Dev nD) : W13 m ρ c = P13 m ρ c := by
  show StableHlo.after hostOps2_2 (StableHlo.after hostOps2_1 (StableHlo.after hostOps2 (W10 m ρ c))) = _
  rw [relu3_eq]

end Cert.KernelIdeal.PlainCalls

end
-- ==== Proof.ResultFold.lean ====
/-
  The idealized kernel program's result is the reference's.

  Both programs compute, from the same arguments, the same chain: the symmetric degree normalisation of the message
  graph, two graph-convolution layers x ↦ relu (segment_sum ((x · W_l)[src] · norm) + b_l), the Hadamard product of the
  end points' rows for every evaluated edge, and the two-layer perceptron max (had · W1 + b1, 0) · W2 + b2.  The
  reference computes the three matrix products on the host; the kernel program computes each in a pallas_call region,
  2000 rows of the left factor at a time.  At the extended reals a region's output array IS the host's product of the
  arrays the region was entered with (the region lemmas: each block of rows is the product's restriction to those
  rows, and the blocks tile the array), so, read through the fold of the program's buffer contents from the launch
  memory, a region acts on its output buffer exactly as the reference's `dot_general` line does and leaves every
  other buffer alone.  With the three regions read that way the kernel program's result buffer unfolds, operation
  for operation, to the reference's composed term of the arguments; the one difference left is how a bias vector
  becomes a one-row array (a reshape before the region, a broadcast along a new axis on the host), and those are one
  array.  The host program's small outlined functions are read through their plain operations (Proof/PlainCalls.lean).
-/
import proofs.«148352_j16638703305286_1_alg».proof.Proof.Gen.KernelIdeal.Frame
import proofs.«148352_j16638703305286_1_alg».proof.ReferenceIdeal
import proofs.«148352_j16638703305286_1_alg».proof.Proof.Gen.ReferenceIdeal
import proofs.«148352_j16638703305286_1_alg».proof.Proof.LinearArray
import proofs.«148352_j16638703305286_1_alg».proof.Proof.RefRun
import proofs.«148352_j16638703305286_1_alg».proof.Proof.LibRowLift
import proofs.«148352_j16638703305286_1_alg».proof.Proof.DecoderArray
import proofs.«148352_j16638703305286_1_alg».proof.Proof.PlainCalls
import Idealize.ShloMosaic.Lib.StableHlo.Run
import Idealize.ShloMosaic.PureOps.Ideal

set_option maxRecDepth 16384

noncomputable section

namespace Cert.KernelIdeal.Fold

open Cert.KernelIdeal Cert.KernelIdeal.Gen Cert.KernelIdeal.PlainCalls Idealize.ShloMosaic Idealize.ShloMosaic.TcCoe Idealize.SL.Sem

variable (m : (ℓ : Loc nD τ sig) → Buf (Elt Ideal) ℓ) (ρ : Dev nD → PrngReg)

/-! ## A region read as a rewrite rule on the fold -/

/-- Past the first linear layer its output array is the matrix product of the arrays the region was entered with. -/
theorem W6_out (c : Dev nD) :
    W6 (F := Ideal) m ρ c (no_index (Proc.devRef .tc main_v32))
      = Host.dotGeneral (F := Ideal) (φ₁ := .f32) (φ₂ := .f32) Cert.ReferenceIdeal.dot_S50000x256_S256x256_S50000x256_1_0_0_1_n_n none
          (P5 m ρ c (Proc.devRef .tc main_arg0)) (P5 m ρ c (Proc.devRef .tc main_v31)) :=
  (W6_arr m ρ c 2).trans ((RegionValue.lin0_array (V5 m ρ) c).trans (by
    show Host.dotGeneral (F := Ideal) (φ₁ := .f32) (φ₂ := .f32) Cert.ReferenceIdeal.dot_S50000x256_S256x256_S50000x256_1_0_0_1_n_n none
      (W5 m ρ c (Proc.devRef .tc main_arg0)) (W5 m ρ c (Proc.devRef .tc main_v31)) = _
    rw [W5_eq]))
/-- A buffer that is none of the region's arrays passes the region unchanged. -/
theorem W6_pass (c : Dev nD) (x : Ref sig .tc) (h : ∀ w, Pipeline.arrRef spec0 w ≠ x) :
    W6 (F := Ideal) m ρ c (no_index (Proc.devRef .tc x)) = P5 m ρ c (Proc.devRef .tc x) :=
  (W6_of_ne m ρ c x h).trans (congrFun (W5_eq m ρ c) _)
/-- Past the second linear layer, the same. -/
theorem W10_out (c : Dev nD) :
    W10 (F := Ideal) m ρ c (no_index (Proc.devRef .tc main_v54))
      = Host.dotGeneral (F := Ideal) (φ₁ := .f32) (φ₂ := .f32) Cert.ReferenceIdeal.dot_S50000x256_S256x256_S50000x256_1_0_0_1_n_n none
          (P9 m ρ c (Proc.devRef .tc main_v51)) (P9 m ρ c (Proc.devRef .tc main_v53)) :=
  (W10_arr m ρ c 2).trans ((RegionValue.lin1_array (V9 m ρ) c).trans (by
    show Host.dotGeneral (F := Ideal) (φ₁ := .f32) (φ₂ := .f32) Cert.ReferenceIdeal.dot_S50000x256_S256x256_S50000x256_1_0_0_1_n_n none
      (W9 m ρ c (Proc.devRef .tc main_v51)) (W9 m ρ c (Proc.devRef .tc main_v53)) = _
    rw [W9_eq]))
theorem W10_pass (c : Dev nD) (x : Ref sig .tc) (h : ∀ w, Pipeline.arrRef spec1 w ≠ x) :
    W10 (F := Ideal) m ρ c (no_index (Proc.devRef .tc x)) = P9 m ρ c (Proc.devRef .tc x) :=
  (W10_of_ne m ρ c x h).trans (congrFun (W9_eq m ρ c) _)
/-- Past the decoder its output column is the two-layer perceptron of the arrays the region was entered with, the
    biases as the one-row arrays the region stages. -/
theorem W14_out₀ (c : Dev nD) :
    W14 (F := Ideal) m ρ c (Proc.devRef .tc main_v95)
      = addf (Host.dotGeneral (F := Ideal) (φ₁ := .f32) (φ₂ := .f32) Cert.ReferenceIdeal.dot_S100000x128_S128x1_S100000x1_1_0_0_1_n_n none
                (maximumf (addf (Host.dotGeneral (F := Ideal) (φ₁ := .f32) (φ₂ := .f32) Cert.ReferenceIdeal.dot_S100000x256_S256x128_S100000x128_1_0_0_1_n_n none
                                    (P13 m ρ c (Proc.devRef .tc main_v92)) (P13 m ρ c (Proc.devRef .tc main_arg3)))
                                (broadcastInDim Cert.ReferenceIdeal.S100000x128 ![0, 1] Cert.ReferenceIdeal.Facts₀.bcast_S1x128_S100000x128_0_1 (P13 m ρ c (Proc.devRef .tc main_v93))))
                          (broadcastInDim Cert.ReferenceIdeal.S100000x128 ![] Cert.ReferenceIdeal.Facts₀.bcast_S_S100000x128 (constant (F := Ideal) S_ .f32 0x00000000#32)))
                (P13 m ρ c (Proc.devRef .tc main_arg5)))
             (broadcastInDim Cert.ReferenceIdeal.S100000x1 ![0, 1] Cert.ReferenceIdeal.Facts₀.bcast_S1x1_S100000x1_0_1 (P13 m ρ c (Proc.devRef .tc main_v94))) :=
  (W14_arr m ρ c 5).trans ((RegionValue.dec_array (V13 m ρ) c).trans (by
    show addf (Host.dotGeneral (F := Ideal) (φ₁ := .f32) (φ₂ := .f32) Cert.ReferenceIdeal.dot_S100000x128_S128x1_S100000x1_1_0_0_1_n_n none
                (maximumf (addf (Host.dotGeneral (F := Ideal) (φ₁ := .f32) (φ₂ := .f32) Cert.ReferenceIdeal.dot_S100000x256_S256x128_S100000x128_1_0_0_1_n_n none
                                    (W13 m ρ c (Proc.devRef .tc main_v92)) (W13 m ρ c (Proc.devRef .tc main_arg3)))
                                (broadcastInDim Cert.ReferenceIdeal.S100000x128 ![0, 1] Cert.ReferenceIdeal.Facts₀.bcast_S1x128_S100000x128_0_1 (W13 m ρ c (Proc.devRef .tc main_v93))))
                          (broadcastInDim Cert.ReferenceIdeal.S100000x128 ![] Cert.ReferenceIdeal.Facts₀.bcast_S_S100000x128 (constant (F := Ideal) Cert.ReferenceIdeal.S_ .f32 0x00000000#32)))
                (W13 m ρ c (Proc.devRef .tc main_arg5)))
             (broadcastInDim Cert.ReferenceIdeal.S100000x1 ![0, 1] Cert.ReferenceIdeal.Facts₀.bcast_S1x1_S100000x1_0_1 (W13 m ρ c (Proc.devRef .tc main_v94))) = _
    rw [W13_eq]))

/-- The first bias as the region finds it: the vector reshaped to one row, which is the vector broadcast along a new
    leading axis. -/
theorem bias1_row (c : Dev nD) :
    P13 (F := Ideal) m ρ c (Proc.devRef .tc main_v93)
      = broadcastInDim Cert.ReferenceIdeal.S1x128 ![1] Cert.ReferenceIdeal.Facts₀.bcast_S128_S1x128_1 (P13 m ρ c (Proc.devRef .tc main_arg4)) := by
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', W10_pass, W6_pass]
  exact Cert.RowLift.shapeCast_a_1a_eq_broadcastInDim _ _ _
/-- The second bias likewise. -/
theorem bias2_row (c : Dev nD) :
    P13 (F := Ideal) m ρ c (Proc.devRef .tc main_v94)
      = broadcastInDim Cert.ReferenceIdeal.S1x1 ![1] Cert.ReferenceIdeal.Facts₀.bcast_S1_S1x1_1 (P13 m ρ c (Proc.devRef .tc main_arg6)) := by
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', W10_pass, W6_pass]
  exact Cert.RowLift.shapeCast_a_1a_eq_broadcastInDim _ _ _

/-- The decoder's rule with the biases as the reference spells them. -/
theorem W14_out (c : Dev nD) :
    W14 (F := Ideal) m ρ c (no_index (Proc.devRef .tc main_v95))
      = addf (Host.dotGeneral (F := Ideal) (φ₁ := .f32) (φ₂ := .f32) Cert.ReferenceIdeal.dot_S100000x128_S128x1_S100000x1_1_0_0_1_n_n none
                (maximumf (addf (Host.dotGeneral (F := Ideal) (φ₁ := .f32) (φ₂ := .f32) Cert.ReferenceIdeal.dot_S100000x256_S256x128_S100000x128_1_0_0_1_n_n none
                                    (P13 m ρ c (Proc.devRef .tc main_v92)) (P13 m ρ c (Proc.devRef .tc main_arg3)))
                                (broadcastInDim Cert.ReferenceIdeal.S100000x128 ![0, 1] Cert.ReferenceIdeal.Facts₀.bcast_S1x128_S100000x128_0_1
                                  (broadcastInDim Cert.ReferenceIdeal.S1x128 ![1] Cert.ReferenceIdeal.Facts₀.bcast_S128_S1x128_1 (P13 m ρ c (Proc.devRef .tc main_arg4)))))
                          (broadcastInDim Cert.ReferenceIdeal.S100000x128 ![] Cert.ReferenceIdeal.Facts₀.bcast_S_S100000x128 (constant (F := Ideal) S_ .f32 0x00000000#32)))
                (P13 m ρ c (Proc.devRef .tc main_arg5)))
             (broadcastInDim Cert.ReferenceIdeal.S100000x1 ![0, 1] Cert.ReferenceIdeal.Facts₀.bcast_S1x1_S100000x1_0_1
               (broadcastInDim Cert.ReferenceIdeal.S1x1 ![1] Cert.ReferenceIdeal.Facts₀.bcast_S1_S1x1_1 (P13 m ρ c (Proc.devRef .tc main_arg6)))) := by
  rw [← bias1_row, ← bias2_row]; exact W14_out₀ m ρ c

/-! ## The two results are one array -/

set_option maxHeartbeats 40000000 in
/-- The reference's result term, read at arguments that agree with the kernel program's, is the kernel program's
    result: the fold of the kernel program read at its result buffer is, operation for operation, that term. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    Cert.ReferenceIdeal.ValueP.res_main_v102 (F := Ideal) m' c = W15 (F := Ideal) m ρ c (Proc.devRef .tc main_v96) := by
  symm
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne',
      W14_out, W10_out, W10_pass, W6_out, W6_pass]
  unfold Cert.ReferenceIdeal.ValueP.res_main_v102
  rw [h0, h1, h2, h3, h4, h5, h6, h7, h8]
  rfl

end Cert.KernelIdeal.Fold
end
-- ==== Proof.lean ====
/-
  A two-layer graph convolution with a Hadamard-product edge decoder: the kernel program against its reference.

  From node embeddings x₀ (50000 × 256), layer weights W₀, W₁ (256 × 256) and biases, a message graph of 800000 edges
  (src, dst) and 100000 evaluated edges (e₀, e₁), both programs compute
      norm  = d[src] · d[dst],  d = deg^(-1/2) where the in-degree deg is positive and 0 elsewhere,
      x_{l+1} = relu (segment_sum_dst ((x_l · W_l)[src] · norm) + b_l)          (l = 0, 1),
      score = (max (had · U₁ + c₁, 0) · U₂ + c₂)[:, 0],   had = x₂[e₀] ⊙ x₂[e₁].
  The reference forms the three matrix products x_l · W_l and the perceptron on the host; the kernel program forms
  each of them in a pallas_call region over blocks of 2000 rows, its operands cast to bf16 before the product — a
  change of float format, which at the extended reals is the identity.  Every other line is the same host operation
  in both programs.

  The claim's five parts:
  • the three frames — the kernel program's two are the generated frame certificates; the reference's is its run with
    the result dropped;
  • `preserves` — the ideal pass rewrote nothing, the conjunct is `True`;
  • `algebraic` — the kernel program runs to its result buffer at the last valuation of the fold of its buffer
    contents (Proof/RunValue.lean); the reference runs to its composed term of the arguments (Proof/RefRun.lean); and
    the two are one array (Proof/ResultFold.lean, over the region lemmas Proof/LinearArray.lean and
    Proof/DecoderArray.lean: a region's output array is the host product, respectively the host perceptron, of the
    arrays it was entered with).  No law of the extended reals beyond the definitions is used: a block of rows of a
    product is the product of that block of rows, sum by sum in the same order, so finiteness of the inputs is never
    opened.
-/
import proofs.«148352_j16638703305286_1_alg».proof.Defs
import proofs.«148352_j16638703305286_1_alg».proof.Proof.Gen.Kernel
import proofs.«148352_j16638703305286_1_alg».proof.Proof.Gen.Kernel.Skeleton
import proofs.«148352_j16638703305286_1_alg».proof.Proof.Gen.Kernel.Launch
import proofs.«148352_j16638703305286_1_alg».proof.Proof.Gen.Kernel.Points
import proofs.«148352_j16638703305286_1_alg».proof.Proof.Gen.Kernel.Frame
import proofs.«148352_j16638703305286_1_alg».proof.Proof.Gen.KernelIdeal
import proofs.«148352_j16638703305286_1_alg».proof.Proof.Gen.KernelIdeal.Skeleton
import proofs.«148352_j16638703305286_1_alg».proof.Proof.Gen.KernelIdeal.Launch
import proofs.«148352_j16638703305286_1_alg».proof.Proof.Gen.KernelIdeal.Points
import proofs.«148352_j16638703305286_1_alg».proof.Proof.Gen.KernelIdeal.Frame
import proofs.«148352_j16638703305286_1_alg».proof.Proof.Gen.ReferenceIdeal
import proofs.«148352_j16638703305286_1_alg».proof.Proof.Gen.Pre_finite_inputs
import proofs.«148352_j16638703305286_1_alg».proof.Proof.RunValue
import proofs.«148352_j16638703305286_1_alg».proof.Proof.RefRun
import proofs.«148352_j16638703305286_1_alg».proof.Proof.ResultFold
import Idealize.ShloMosaic.Adequacy
import Idealize.ShloMosaic.Init

noncomputable section

namespace Cert.Proof

open Idealize.ShloMosaic Idealize.ShloMosaic.TcCoe Idealize.SL.Sem

/-- The word-level kernel program runs, and its arguments end as launched. -/
theorem frame_kernel : Cert.frame_Kernel := fun m ρ _ => Cert.Kernel.Gen.frame m ρ

/-- The idealized kernel program runs, and its arguments end as launched. -/
theorem frame_kernelIdeal : Cert.frame_KernelIdeal := fun m ρ _ => Cert.KernelIdeal.Gen.frame m ρ

/-- The reference runs, and its arguments end as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to preserve. -/
theorem preserves : Cert.preserves_Kernel_KernelIdeal := trivial

/-- From arguments that agree, the two idealized programs end with one result array: the kernel program's result
    buffer at the end of its fold is the reference's composed term. -/
theorem algebraic : Cert.algebraic_KernelIdeal_ReferenceIdeal := by
  intro m ρ m' ρ' _ hagree
  refine ⟨fun c => Cert.KernelIdeal.Gen.W15 (F := Ideal) m ρ c (Proc.devRef .tc Cert.KernelIdeal.main_v96),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  exact Cert.KernelIdeal.Fold.result_eq m ρ m' c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
